-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩

abbrev nBuf : Space → Nat
  | .hbm => 98
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S850000x1, .f32⟩
  | .hbm, ⟨44, _⟩ => ⟨S128x128, .bf16⟩
  | .hbm, ⟨45, _⟩ => ⟨S50000x128, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S128x128, .bf16⟩
  | .hbm, ⟨64, _⟩ => ⟨S50000x128, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x128, .f32⟩
  | .hbm, ⟨74, _⟩ => ⟨S850000x128, .f32⟩
  | .hbm, ⟨75, _⟩ => ⟨S850000x128, .f32⟩
  | .hbm, ⟨76, _⟩ => ⟨S_, .f32⟩
  | .hbm, ⟨77, _⟩ => ⟨S50000x128, .f32⟩
  | .hbm, ⟨78, _⟩ => ⟨S850000x1, .i32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S_, .f32⟩
  | .hbm, ⟨83, _⟩ => ⟨S512x128, .f32⟩
  | .hbm, ⟨84, _⟩ => ⟨S50000x1, .i32⟩
  | .hbm, ⟨85, _⟩ => ⟨S512x128, .f32⟩
  | .hbm, ⟨86, _⟩ => ⟨S_, .f32⟩
  | .hbm, ⟨87, _⟩ => ⟨S50000, .f32⟩
  | .hbm, ⟨88, _⟩ => ⟨S_, .f32⟩
  | .hbm, ⟨89, _⟩ => ⟨S512, .f32⟩
  | .hbm, ⟨90, _⟩ => ⟨S50000x1, .i32⟩
  | .hbm, ⟨91, _⟩ => ⟨S512, .f32⟩
  | .hbm, ⟨92, _⟩ => ⟨S_, .f32⟩
  | .hbm, ⟨93, _⟩ => ⟨S512, .f32⟩
  | .hbm, ⟨94, _⟩ => ⟨S512, .f32⟩
  | .hbm, ⟨95, _⟩ => ⟨S512x1, .f32⟩
  | .hbm, ⟨96, _⟩ => ⟨S512x128, .f32⟩
  | .hbm, ⟨97, _⟩ => ⟨S512x128, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .bf16⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_8 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_cst_13 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_14 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S850000x1, .f32⟩
  | .hbm, ⟨44, _⟩ => ⟨S50000x128, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x128, .f32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .f32⟩
  | .hbm, ⟨76, _⟩ => ⟨S850000x128, .f32⟩
  | .hbm, ⟨77, _⟩ => ⟨S850000x128, .f32⟩
  | .hbm, ⟨78, _⟩ => ⟨S_, .f32⟩
  | .hbm, ⟨79, _⟩ => ⟨S50000x128, .f32⟩
  | .hbm, ⟨80, _⟩ => ⟨S850000x1, .i32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S512x128, .f32⟩
  | .hbm, ⟨87, _⟩ => ⟨S50000x1, .i32⟩
  | .hbm, ⟨88, _⟩ => ⟨S512x128, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S512, .f32⟩
  | .hbm, ⟨93, _⟩ => ⟨S50000x1, .i32⟩
  | .hbm, ⟨94, _⟩ => ⟨S512, .f32⟩
  | .hbm, ⟨95, _⟩ => ⟨S_, .f32⟩
  | .hbm, ⟨96, _⟩ => ⟨S512, .f32⟩
  | .hbm, ⟨97, _⟩ => ⟨S512, .f32⟩
  | .hbm, ⟨98, _⟩ => ⟨S512x1, .f32⟩
  | .hbm, ⟨99, _⟩ => ⟨S512x128, .f32⟩
  | .hbm, ⟨100, _⟩ => ⟨S512x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call0_cst : Ref sig .tc := ⟨.hbm, 63, rfl⟩
abbrev main_call0_v0 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf

class Facts : Prop extends Facts₀ where

variable [Facts]
-- ==== Proof.Named.lean ====
/-
  The idealized kernel program's run with its result named: every weakly fair execution terminates, nothing faulting,
  with the result buffer holding what the last stretch of host operations leaves in it — the contents at the last
  segment boundary, a fold of the host stretches and the four calls' write-backs from the launch memory — and the
  argument arrays as launched.
-/
import proofs.«126065_j3934190043554_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, each argument as launched. -/
theorem run_named : θ_run defs (onTc (τ := τ) (main (F := F))) ⟨m, fun _ => 0, ρ⟩ (fun r => ∀ c : Dev nD,
      r.2.mem ((c.tc : Thread nD τ).loc main_v73) = W9 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v73 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Named

end
-- ==== Proof.LibMatmulNN.lean ====
/-
  A row-by-column matrix product read at an index, over the extended reals, for any record of dimension numbers.

  For dimension numbers that contract the left operand's second axis with the right operand's first (left
  operand M×K, right operand K×N, no batch axis) the sum over the record's contraction index is, at row r and
  column c, the sum over k < K of lhs(r, k) · rhs(k, c).  The record is a parameter and the operands are plain
  functions to the extended reals, so the lemma serves operands of any float formats; the record's coordinate
  facts are hypotheses, each closed by unfolding at a literal record.
-/
import Idealize.ShloMosaic.PureOps.Ideal.Laws
import Idealize.ShloMosaic.Lib.ValueIdx

noncomputable section

namespace LibMatmulNN

open Idealize.ShloMosaic Idealize.ShloMosaic.ValueIdx

/-- The sum a row-by-column product is, with the contraction index a plain number below K: for dimension numbers
    that contract the left operand's second axis with the right operand's first (no batch axis), the entry at
    (r, c) sums lhs(r, k) · rhs(k, c) over k < K. -/
theorem contr_sum {M K N : Nat} (D : DotDims ⟨2, ![M, K]⟩ ⟨2, ![K, N]⟩ ⟨2, ![M, N]⟩)
    (hr : D.contr.rank = 1) (hs : D.contr.size ⟨0, by omega⟩ = K)
    (hlc : D.lhsContracting = [1]) (hrc : D.rhsContracting = [0])
    (hl0 : ∀ (j : (⟨2, ![M, N]⟩ : Shape).Idx) (k : D.contr.Idx), (D.lhsIdx j k 0).val = (j 0).val)
    (hr1 : ∀ (j : (⟨2, ![M, N]⟩ : Shape).Idx) (k : D.contr.Idx), (D.rhsIdx j k 1).val = (j 1).val)
    (lhs : (⟨2, ![M, K]⟩ : Shape).Idx → EReal) (rhs : (⟨2, ![K, N]⟩ : Shape).Idx → EReal) (r : Fin M) (c : Fin N) :
    (∑ k : D.contr.Idx, lhs (D.lhsIdx (ix2 r c) k) * rhs (D.rhsIdx (ix2 r c) k))
      = ∑ k : Fin K, lhs (ix2 r k) * rhs (ix2 k c) := by
  rw [← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k :=
    funext fun a => Fin.ext (by
      match a with
      | ⟨0, _⟩ => exact hl0 _ _
      | ⟨1, _⟩ => exact (D.lhsIdx_val_of_single hlc (ix2 r c) _).trans hk)
  have er : D.rhsIdx (ix2 r c) ((contrEquiv1 D K hr hs).symm k) = ix2 k c :=
    funext fun a => Fin.ext (by
      match a with
      | ⟨0, _⟩ => exact (D.rhsIdx_val_of_single hrc (ix2 r c) _).trans hk
      | ⟨1, _⟩ => exact hr1 _ _)
  rw [el, er]

end LibMatmulNN

end
-- ==== Proof.Entry.lean ====
/-
  The four kernel bodies' arithmetic, read at one entry of the block, over the extended reals.

  A body of the first kind multiplies a block of rows by the square weight matrix: entry (p, q) of its result is the
  sum over k of row p's entry k times the weight's entry (k, q) — the rounding of both operands to a shorter format on
  the way in is the identity on the extended reals, and the product starts from zero.  A body of the second kind adds
  the one-row bias to every row of the block, and in the first layer then takes the larger of that and zero.
-/
import proofs.«126065_j3934190043554_1_alg».proof.Proof.Gen.KernelIdeal.Skeleton
import proofs.«126065_j3934190043554_1_alg».proof.Proof.LibMatmulNN
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Entry

open Cert.KernelIdeal Cert.KernelIdeal.Gen Idealize.ShloMosaic Idealize.ShloMosaic.ValueIdx

/-- The block product's dimension numbers keep the output's row on the left operand's first axis. -/
theorem dot_lhs0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- … and the output's column on the right operand's second axis. -/
theorem dot_rhs1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block of rows times the weight matrix, from zero: entry (p, q) is the sum over k of x(p, k) · w(k, q). -/
theorem rows_times (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) :=
  (Ideal.matmul_constant_zero_apply dot_S5000x128_S128x128_S5000x128_1_0_0_1_n_n none x w (ix2 p q)).trans
    (LibMatmulNN.contr_sum dot_S5000x128_S128x128_S5000x128_1_0_0_1_n_n rfl rfl rfl rfl dot_lhs0 dot_rhs1 x w p q)

/-- The first layer's linear body at an entry. -/
theorem linear1 (x : FVec Ideal S5000x128 .f32) (w : FVec Ideal S128x128 .bf16) (p : Fin 5000) (q : Fin 128) :
    k0_pay1 (F := Ideal) x w (ix2 p q) = ∑ k : Fin 128, x (ix2 p k) * w (ix2 k q) := by
  unfold k0_pay1
  rw [shapeCast_self]
  exact rows_times (truncf .bf16 x bitsLt_bf16_f32) w p q

/-- The second layer's linear body at an entry. -/
theorem linear2 (x : FVec Ideal S5000x128 .f32) (w : FVec Ideal S128x128 .bf16) (p : Fin 5000) (q : Fin 128) :
    k2_pay1 (F := Ideal) x w (ix2 p q) = ∑ k : Fin 128, x (ix2 p k) * w (ix2 k q) := by
  unfold k2_pay1
  rw [shapeCast_self, shapeCast_self]
  exact rows_times (truncf .bf16 x bitsLt_bf16_f32) w p q

/-- The first layer's bias body at an entry: the row's entry plus the bias's entry of that column, or zero if larger. -/
theorem bias_relu (a : FVec Ideal S5000x128 .f32) (b : FVec Ideal S1x128 .f32) (p : Fin 5000) (q : Fin 128) :
    k1_pay1 (F := Ideal) a b (ix2 p q) = max (a (ix2 p q) + b (ix2 (0 : Fin 1) q)) 0 := by
  unfold k1_pay1
  rw [shapeCast_self, shapeCast_self, shapeCast_self]
  show max (a (ix2 p q) + broadcastTo S5000x128 b broadcasts_S1x128_S5000x128 (ix2 p q)) (Ideal.ofBits .f32 0x00000000#32) = _
  rw [broadcastTo_1b_ab_apply, Ideal.ofBits_zero_f32]

/-- The second layer's bias body at an entry: the row's entry plus the bias's entry of that column. -/
theorem bias (a : FVec Ideal S5000x128 .f32) (b : FVec Ideal S1x128 .f32) (p : Fin 5000) (q : Fin 128) :
    k3_pay1 (F := Ideal) a b (ix2 p q) = a (ix2 p q) + b (ix2 (0 : Fin 1) q) := by
  unfold k3_pay1
  rw [shapeCast_self, shapeCast_self, shapeCast_self]
  show a (ix2 p q) + broadcastTo S5000x128 b broadcasts_S1x128_S5000x128 (ix2 p q) = _
  rw [broadcastTo_1b_ab_apply]

end Cert.KernelIdeal.Entry

end
-- ==== Proof.Spec.lean ====
/-
  The three whole-array functions the four kernel calls compute, over the extended reals.

  `product x w` multiplies every row of an n-by-128 array by the 128-by-128 weight matrix; `plusRow a b` adds the
  one-row array b to every row of a; `plusRowPos a b` does the same and then takes the larger of the sum and zero.
-/
import Idealize.ShloMosaic.PureOps.Ideal
import Idealize.ShloMosaic.Lib.ValueIdx

noncomputable section

namespace Cert.Gcn

open Idealize.ShloMosaic Idealize.ShloMosaic.ValueIdx

/-- Rows times the weight matrix: entry (r, q) is the sum over k of x(r, k) · w(k, q). -/
def product {n : Nat} (x : (⟨2, ![n, 128]⟩ : Shape).Idx → EReal) (w : (⟨2, ![128, 128]⟩ : Shape).Idx → EReal) :
    (⟨2, ![n, 128]⟩ : Shape).Idx → EReal :=
  fun i => ∑ k : Fin 128, x (ix2 (i 0) k) * w (ix2 k (i 1))

/-- The one-row array added to every row. -/
def plusRow {n : Nat} (a : (⟨2, ![n, 128]⟩ : Shape).Idx → EReal) (b : (⟨2, ![1, 128]⟩ : Shape).Idx → EReal) :
    (⟨2, ![n, 128]⟩ : Shape).Idx → EReal :=
  fun i => a i + b (ix2 (0 : Fin 1) (i 1))

/-- The one-row array added to every row, then the larger of that and zero. -/
def plusRowPos {n : Nat} (a : (⟨2, ![n, 128]⟩ : Shape).Idx → EReal) (b : (⟨2, ![1, 128]⟩ : Shape).Idx → EReal) :
    (⟨2, ![n, 128]⟩ : Shape).Idx → EReal :=
  fun i => max (a i + b (ix2 (0 : Fin 1) (i 1))) 0

end Cert.Gcn

end
-- ==== Proof.Linear1.lean ====
/-
  The first layer's linear call, block by block, is one whole-array function: the array it writes ends holding
  every row of its input array times the weight matrix.

  The call walks ten blocks of 5000 rows.  At point t it reads rows 5000·t … 5000·t + 4999 of the input and the whole
  weight matrix, and writes the block's product back to the same rows of the output; the ten row ranges cover the
  50000 rows.  So entry (r, q) of the output is the sum over k of input(r, k) · weight(k, q), whatever the array
  contents the call is entered with.
-/
import proofs.«126065_j3934190043554_1_alg».proof.Proof.Gen.KernelIdeal.Frame
import proofs.«126065_j3934190043554_1_alg».proof.Proof.Entry
import proofs.«126065_j3934190043554_1_alg».proof.Proof.Spec
import Idealize.ShloMosaic.Lib.Pipeline.Value

noncomputable section

namespace Cert.KernelIdeal.Linear1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The three index maps over the grid: the input's and the output's block row is the point's number, every block
    column is zero, and the weight's block is always the first. -/
theorem index_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- The body's arithmetic at an entry of the block, the entry given as an index. -/
theorem body_at (x : FVec Ideal S5000x128 .f32) (w : FVec Ideal S128x128 .bf16) (j : S5000x128.Idx) :
    k0_pay1 (F := Ideal) x w j = ∑ k : Fin 128, x (ix2 (j 0) k) * w (ix2 k (j 1)) :=
  (congrArg (k0_pay1 (F := Ideal) x w) (eq_ix2 j)).trans (Entry.linear1 x w (j 0) (j 1))

/-- What point t writes back is block t of the product of the input array and the weight array as the call finds
    them. -/
theorem flushed_eq (c : Dev nD) (t : Fin cfg0.N) :
    (dat0 V c).flushed 2 t
      = ((cfg0.win 2).blk t).view.read (Elt Ideal)
          (Cert.Gcn.product (n := 50000) (V c main_arg0) (V c main_v30)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := index_facts t
  funext j
  show k0_pay1 (F := Ideal) (iblk0 V c 0 t) (iblk0 V c 1 t) j
      = Cert.Gcn.product (n := 50000) (V c main_arg0) (V c main_v30) (((cfg0.win 2).blk t).view.emb j)
  refine (body_at (iblk0 V c 0 t) (iblk0 V c 1 t) j).trans ?_
  unfold Cert.Gcn.product
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  refine congrArg₂ (fun a b : EReal => a * b) ?_ ?_
  · show V c main_arg0 (((cfg0.win 0).blk t).view.emb (ix2 (j 0) k)) = V c main_arg0 (ix2 ((((cfg0.win 2).blk t).view.emb j) 0) k)
    rw [h0]
    try rfl
  · show V c main_v30 (((cfg0.win 1).blk t).view.emb (ix2 k (j 1))) = V c main_v30 (ix2 k ((((cfg0.win 2).blk t).view.emb j) 1))
    rw [h1]
    try rfl

/-- An index of the output array lies in point t's block exactly when each coordinate lies in the block's range. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every row of the output lies in some point's block: row r in the block of point r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; rw [hN]; omega⟩
  obtain ⟨e0, e1, e2, e3, e4, e5⟩ := index_facts t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the call: the product of the input array and the weight array as the call finds them. -/
theorem final (c : Dev nD) :
    (dat0 V c).arrAt 2 cfg0.N = Cert.Gcn.product (n := 50000) (V c main_arg0) (V c main_v30) :=
  (dat0 V c).arrAt_eq_of_cover 2 _ (fun t _ => flushed_eq V c t) cover

end Cert.KernelIdeal.Linear1

end
-- ==== Proof.Bias1.lean ====
/-
  The first layer's bias call, block by block, is one whole-array function: the array it writes ends holding
  every row of its input array plus the one-row bias, or zero where that is larger.

  The call walks ten blocks of 5000 rows.  At point t it reads rows 5000·t … 5000·t + 4999 of the input and the
  bias row, and writes the block's result back to the same rows of the output; the ten row ranges cover the 50000
  rows.  So entry (r, q) of the output depends on input(r, q) and bias(0, q) only, whatever the array contents the
  call is entered with.
-/
import proofs.«126065_j3934190043554_1_alg».proof.Proof.Gen.KernelIdeal.Frame
import proofs.«126065_j3934190043554_1_alg».proof.Proof.Entry
import proofs.«126065_j3934190043554_1_alg».proof.Proof.Spec
import Idealize.ShloMosaic.Lib.Pipeline.Value

noncomputable section

namespace Cert.KernelIdeal.Bias1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The three index maps over the grid: the input's and the output's block row is the point's number, every block
    column is zero, and the bias's block is always the first. -/
theorem index_facts : ∀ t : Fin cfg1.N,
    win1_0.index t (0 : Fin 2) = win1_2.index t (0 : Fin 2) ∧ win1_0.index t (1 : Fin 2) = win1_2.index t (1 : Fin 2)
    ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

/-- The body's arithmetic at an entry of the block, the entry given as an index. -/
theorem body_at (a : FVec Ideal S5000x128 .f32) (b : FVec Ideal S1x128 .f32) (j : S5000x128.Idx) :
    k1_pay1 (F := Ideal) a b j = Cert.Gcn.plusRowPos (n := 5000) a b j :=
  (congrArg (k1_pay1 (F := Ideal) a b) (eq_ix2 j)).trans
    ((Entry.bias_relu a b (j 0) (j 1)).trans (congrArg (fun i : S5000x128.Idx => max (a i + b (ix2 (0 : Fin 1) (j 1))) 0) (eq_ix2 j).symm))

/-- What point t writes back is block t of the whole-array function of the input array and the bias array as the call
    finds them. -/
theorem flushed_eq (c : Dev nD) (t : Fin cfg1.N) :
    (dat1 V c).flushed 2 t
      = ((cfg1.win 2).blk t).view.read (Elt Ideal)
          (Cert.Gcn.plusRowPos (n := 50000) (V c main_v43) (V c main_v44)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  obtain ⟨e0, e1, e2, e3, e4, e5⟩ := index_facts t
  funext j
  show k1_pay1 (F := Ideal) (iblk1 V c 0 t) (iblk1 V c 1 t) j
      = Cert.Gcn.plusRowPos (n := 50000) (V c main_v43) (V c main_v44) (((cfg1.win 2).blk t).view.emb j)
  refine (body_at (iblk1 V c 0 t) (iblk1 V c 1 t) j).trans ?_
  unfold Cert.Gcn.plusRowPos
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 (0 : Fin 1) (j 1)) = ix2 (0 : Fin 1) ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  refine congrArg (fun s : EReal => max s 0) ?_
  refine congrArg₂ (fun a b : EReal => a + b) ?_ ?_
  · show V c main_v43 (((cfg1.win 0).blk t).view.emb j) = V c main_v43 (((cfg1.win 2).blk t).view.emb j)
    rw [h0]
    try rfl
  · show V c main_v44 (((cfg1.win 1).blk t).view.emb (ix2 (0 : Fin 1) (j 1))) = V c main_v44 (ix2 (0 : Fin 1) ((((cfg1.win 2).blk t).view.emb j) 1))
    rw [h1]
    try rfl

/-- An index of the output array lies in point t's block exactly when each coordinate lies in the block's range. -/
theorem mem_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every row of the output lies in some point's block: row r in the block of point r / 5000. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; rw [hN]; omega⟩
  obtain ⟨e0, e1, e2, e3, e4, e5⟩ := index_facts t
  have ht : t.val = (i 0).val / 5000 := rfl
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the call: the whole-array function of the input array and the bias array as the call finds
    them. -/
theorem final (c : Dev nD) :
    (dat1 V c).arrAt 2 cfg1.N = Cert.Gcn.plusRowPos (n := 50000) (V c main_v43) (V c main_v44) :=
  (dat1 V c).arrAt_eq_of_cover 2 _ (fun t _ => flushed_eq V c t) cover

end Cert.KernelIdeal.Bias1

end
-- ==== Proof.Linear2.lean ====
/-
  The second layer's linear call, block by block, is one whole-array function: the array it writes ends holding
  every row of its input array times the weight matrix.

  The call walks ten blocks of 5000 rows.  At point t it reads rows 5000·t … 5000·t + 4999 of the input and the whole
  weight matrix, and writes the block's product back to the same rows of the output; the ten row ranges cover the
  50000 rows.  So entry (r, q) of the output is the sum over k of input(r, k) · weight(k, q), whatever the array
  contents the call is entered with.
-/
import proofs.«126065_j3934190043554_1_alg».proof.Proof.Gen.KernelIdeal.Frame
import proofs.«126065_j3934190043554_1_alg».proof.Proof.Entry
import proofs.«126065_j3934190043554_1_alg».proof.Proof.Spec
import Idealize.ShloMosaic.Lib.Pipeline.Value

noncomputable section

namespace Cert.KernelIdeal.Linear2

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The three index maps over the grid: the input's and the output's block row is the point's number, every block
    column is zero, and the weight's block is always the first. -/
theorem index_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

/-- The body's arithmetic at an entry of the block, the entry given as an index. -/
theorem body_at (x : FVec Ideal S5000x128 .f32) (w : FVec Ideal S128x128 .bf16) (j : S5000x128.Idx) :
    k2_pay1 (F := Ideal) x w j = ∑ k : Fin 128, x (ix2 (j 0) k) * w (ix2 k (j 1)) :=
  (congrArg (k2_pay1 (F := Ideal) x w) (eq_ix2 j)).trans (Entry.linear2 x w (j 0) (j 1))

/-- What point t writes back is block t of the product of the input array and the weight array as the call finds
    them. -/
theorem flushed_eq (c : Dev nD) (t : Fin cfg2.N) :
    (dat2 V c).flushed 2 t
      = ((cfg2.win 2).blk t).view.read (Elt Ideal)
          (Cert.Gcn.product (n := 50000) (V c main_v45) (V c main_v46)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  obtain ⟨e0, e1, e2, e3, e4, e5⟩ := index_facts t
  funext j
  show k2_pay1 (F := Ideal) (iblk2 V c 0 t) (iblk2 V c 1 t) j
      = Cert.Gcn.product (n := 50000) (V c main_v45) (V c main_v46) (((cfg2.win 2).blk t).view.emb j)
  refine (body_at (iblk2 V c 0 t) (iblk2 V c 1 t) j).trans ?_
  unfold Cert.Gcn.product
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  refine congrArg₂ (fun a b : EReal => a * b) ?_ ?_
  · show V c main_v45 (((cfg2.win 0).blk t).view.emb (ix2 (j 0) k)) = V c main_v45 (ix2 ((((cfg2.win 2).blk t).view.emb j) 0) k)
    rw [h0]
    try rfl
  · show V c main_v46 (((cfg2.win 1).blk t).view.emb (ix2 k (j 1))) = V c main_v46 (ix2 k ((((cfg2.win 2).blk t).view.emb j) 1))
    rw [h1]
    try rfl

/-- An index of the output array lies in point t's block exactly when each coordinate lies in the block's range. -/
theorem mem_block (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v47).slice (win2_2.rect t)).set ↔ _
  rw [View.set_slice_whole, Rect.mem_set_unit]
  exact Iff.rfl

/-- Every row of the output lies in some point's block: row r in the block of point r / 5000. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  let t : Fin cfg2.N := ⟨(i 0).val / 5000, by show (i 0).val / 5000 < grid2.N; rw [hN]; omega⟩
  obtain ⟨e0, e1, e2, e3, e4, e5⟩ := index_facts t
  have ht : t.val = (i 0).val / 5000 := rfl
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the call: the product of the input array and the weight array as the call finds them. -/
theorem final (c : Dev nD) :
    (dat2 V c).arrAt 2 cfg2.N = Cert.Gcn.product (n := 50000) (V c main_v45) (V c main_v46) :=
  (dat2 V c).arrAt_eq_of_cover 2 _ (fun t _ => flushed_eq V c t) cover

end Cert.KernelIdeal.Linear2

end
-- ==== Proof.Bias2.lean ====
/-
  The second layer's bias call, block by block, is one whole-array function: the array it writes ends holding
  every row of its input array plus the one-row bias.

  The call walks ten blocks of 5000 rows.  At point t it reads rows 5000·t … 5000·t + 4999 of the input and the
  bias row, and writes the block's result back to the same rows of the output; the ten row ranges cover the 50000
  rows.  So entry (r, q) of the output depends on input(r, q) and bias(0, q) only, whatever the array contents the
  call is entered with.
-/
import proofs.«126065_j3934190043554_1_alg».proof.Proof.Gen.KernelIdeal.Frame
import proofs.«126065_j3934190043554_1_alg».proof.Proof.Entry
import proofs.«126065_j3934190043554_1_alg».proof.Proof.Spec
import Idealize.ShloMosaic.Lib.Pipeline.Value

noncomputable section

namespace Cert.KernelIdeal.Bias2

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The three index maps over the grid: the input's and the output's block row is the point's number, every block
    column is zero, and the bias's block is always the first. -/
theorem index_facts : ∀ t : Fin cfg3.N,
    win3_0.index t (0 : Fin 2) = win3_2.index t (0 : Fin 2) ∧ win3_0.index t (1 : Fin 2) = win3_2.index t (1 : Fin 2)
    ∧ win3_1.index t (0 : Fin 2) = 0 ∧ win3_1.index t (1 : Fin 2) = 0
    ∧ win3_2.index t (1 : Fin 2) = 0 ∧ win3_2.index t (0 : Fin 2) = t.val :=
  (by decide +kernel : ∀ t : Fin grid3.N, _)

/-- The body's arithmetic at an entry of the block, the entry given as an index. -/
theorem body_at (a : FVec Ideal S5000x128 .f32) (b : FVec Ideal S1x128 .f32) (j : S5000x128.Idx) :
    k3_pay1 (F := Ideal) a b j = Cert.Gcn.plusRow (n := 5000) a b j :=
  (congrArg (k3_pay1 (F := Ideal) a b) (eq_ix2 j)).trans
    ((Entry.bias a b (j 0) (j 1)).trans (congrArg (fun i : S5000x128.Idx => a i + b (ix2 (0 : Fin 1) (j 1))) (eq_ix2 j).symm))

/-- What point t writes back is block t of the whole-array function of the input array and the bias array as the call
    finds them. -/
theorem flushed_eq (c : Dev nD) (t : Fin cfg3.N) :
    (dat3 V c).flushed 2 t
      = ((cfg3.win 2).blk t).view.read (Elt Ideal)
          (Cert.Gcn.plusRow (n := 50000) (V c main_v59) (V c main_v60)) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S1x128) zero_offsets]
  obtain ⟨e0, e1, e2, e3, e4, e5⟩ := index_facts t
  funext j
  show k3_pay1 (F := Ideal) (iblk3 V c 0 t) (iblk3 V c 1 t) j
      = Cert.Gcn.plusRow (n := 50000) (V c main_v59) (V c main_v60) (((cfg3.win 2).blk t).view.emb j)
  refine (body_at (iblk3 V c 0 t) (iblk3 V c 1 t) j).trans ?_
  unfold Cert.Gcn.plusRow
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (ix2 (0 : Fin 1) (j 1)) = ix2 (0 : Fin 1) ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  refine congrArg₂ (fun a b : EReal => a + b) ?_ ?_
  · show V c main_v59 (((cfg3.win 0).blk t).view.emb j) = V c main_v59 (((cfg3.win 2).blk t).view.emb j)
    rw [h0]
    try rfl
  · show V c main_v60 (((cfg3.win 1).blk t).view.emb (ix2 (0 : Fin 1) (j 1))) = V c main_v60 (ix2 (0 : Fin 1) ((((cfg3.win 2).blk t).view.emb j) 1))
    rw [h1]
    try rfl

/-- An index of the output array lies in point t's block exactly when each coordinate lies in the block's range. -/
theorem mem_block (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Every row of the output lies in some point's block: row r in the block of point r / 5000. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 10 := N_3
  let t : Fin cfg3.N := ⟨(i 0).val / 5000, by show (i 0).val / 5000 < grid3.N; rw [hN]; omega⟩
  obtain ⟨e0, e1, e2, e3, e4, e5⟩ := index_facts t
  have ht : t.val = (i 0).val / 5000 := rfl
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the call: the whole-array function of the input array and the bias array as the call finds
    them. -/
theorem final (c : Dev nD) :
    (dat3 V c).arrAt 2 cfg3.N = Cert.Gcn.plusRow (n := 50000) (V c main_v59) (V c main_v60) :=
  (dat3 V c).arrAt_eq_of_cover 2 _ (fun t _ => flushed_eq V c t) cover

end Cert.KernelIdeal.Bias2

end
-- ==== Proof.RefForms.lean ====
/-
  The reference's own spellings of the three whole-array functions, over the extended reals.

  The host's plain matrix product of an array of rows with the weight matrix is `product`, and rounding the weight
  to a shorter float format first changes nothing, since a change of format is the identity on the extended reals.
  Adding the bias vector, spread first to one row and then down all the rows, is `plusRow` of the vector viewed as a
  one-row array; followed by the maximum with the all-zero array it is `plusRowPos`.
-/
import proofs.«126065_j3934190043554_1_alg».proof.Proof.Gen.ReferenceIdeal.Read
import proofs.«126065_j3934190043554_1_alg».proof.Proof.Spec
import proofs.«126065_j3934190043554_1_alg».proof.Proof.LibMatmulNN
import Idealize.ShloMosaic.Lib.ValueLayout
import Idealize.ShloMosaic.PureOps.Ideal.Laws

noncomputable section

namespace Cert.ReferenceIdeal.Forms

open Cert.ReferenceIdeal Cert.ReferenceIdeal.Read Idealize.ShloMosaic Idealize.ShloMosaic.ValueIdx

/-- Rows times the weight matrix, the weight rounded to the shorter format first, is the host's matrix product. -/
theorem product_eq (y : FVec Ideal S50000x128 .f32) (w : FVec Ideal S128x128 .f32) (h : FTy.bits .bf16 < FTy.bits .f32) :
    Cert.Gcn.product (n := 50000) y (truncf .bf16 w h)
      = Host.dotGeneral (F := Ideal) dot_S50000x128_S128x128_S50000x128_1_0_0_1_n_n none y w := by
  funext i
  obtain ⟨r, q, rfl⟩ : ∃ (r : Fin 50000) (q : Fin 128), i = ix2 r q := ⟨i 0, i 1, eq_ix2 i⟩
  simp only [Host.dotGeneral]
  rw [Ideal.dotGeneral_apply]
  exact (LibMatmulNN.contr_sum dot_S50000x128_S128x128_S50000x128_1_0_0_1_n_n rfl rfl rfl rfl
    lhs_main_v30_0 rhs_main_v30_1 y w r q).symm

/-- The bias vector's two spreads, read at an entry: the vector's entry of that column. -/
theorem spread1_apply (b : FVec Ideal S128 .f32) (r : Fin 50000) (q : Fin 128) :
    val_main_v44 (F := Ideal) b (ix2 r q) = b (ix1 q) := by
  rw [val_main_v44_apply, val_main_v43_apply]
  exact congrArg b (funext fun a => by match a with | ⟨0, _⟩ => rfl)

theorem spread2_apply (b : FVec Ideal S128 .f32) (r : Fin 50000) (q : Fin 128) :
    val_main_v61 (F := Ideal) b (ix2 r q) = b (ix1 q) := by
  rw [val_main_v61_apply, val_main_v60_apply]
  exact congrArg b (funext fun a => by match a with | ⟨0, _⟩ => rfl)

/-- The all-zero array of the reference's maximum reads zero everywhere. -/
theorem zeros_apply (i : S50000x128.Idx) : val_main_call0_v0 (F := Ideal) i = 0 := by
  rw [val_main_call0_v0_apply, val_main_call0_cst_apply]
  exact Ideal.ofBits_zero_f32

/-- The bias added to every row and the maximum with zero: the reference's add, spreads and maximum. -/
theorem plusRowPos_eq (a : FVec Ideal S50000x128 .f32) (b : FVec Ideal S128 .f32) (h : S128.ShapeCasts S1x128) :
    Cert.Gcn.plusRowPos (n := 50000) a (shapeCast S1x128 b h)
      = maximumf (addf a (val_main_v44 (F := Ideal) b)) (val_main_call0_v0 (F := Ideal)) := by
  funext i
  obtain ⟨r, q, rfl⟩ : ∃ (r : Fin 50000) (q : Fin 128), i = ix2 r q := ⟨i 0, i 1, eq_ix2 i⟩
  show max (a (ix2 r q) + shapeCast S1x128 b h (ix2 (0 : Fin 1) q)) 0
      = max (a (ix2 r q) + val_main_v44 (F := Ideal) b (ix2 r q)) (val_main_call0_v0 (F := Ideal) (ix2 r q))
  rw [shapeCast_a_1a_apply, spread1_apply, zeros_apply]

/-- The bias added to every row: the reference's add and spreads. -/
theorem plusRow_eq (a : FVec Ideal S50000x128 .f32) (b : FVec Ideal S128 .f32) (h : S128.ShapeCasts S1x128) :
    Cert.Gcn.plusRow (n := 50000) a (shapeCast S1x128 b h) = addf a (val_main_v61 (F := Ideal) b) := by
  funext i
  obtain ⟨r, q, rfl⟩ : ∃ (r : Fin 50000) (q : Fin 128), i = ix2 r q := ⟨i 0, i 1, eq_ix2 i⟩
  show a (ix2 r q) + shapeCast S1x128 b h (ix2 (0 : Fin 1) q) = a (ix2 r q) + val_main_v61 (F := Ideal) b (ix2 r q)
  rw [shapeCast_a_1a_apply, spread2_apply]

end Cert.ReferenceIdeal.Forms

end
-- ==== Proof.Chain.lean ====
/-
  The kernel program's result is the reference's, boundary by boundary.

  The kernel program is five stretches of host operations with the four kernel calls between them.  The host
  operations are the reference's own: the edge lists with the self-loops appended, the degree count and the per-edge
  weight, a row lookup scaled by that weight and accumulated at the destination rows, and at the end the per-graph
  mean.  Each call computes, as one whole-array function, what the reference computes at the same place with a host
  operation: the two linear calls the matrix products, the two bias calls the bias addition (the first with the
  maximum with zero).  So at every boundary the buffer the next stage reads holds the reference's value of that
  stage as a function of the seven argument arrays, and the last stretch leaves the reference's result.

  A buffer that a stretch or a call does not write keeps its contents across it; the edge lists, the weight column
  and the later arguments are carried in this way to the stretch that reads them.
-/
import proofs.«126065_j3934190043554_1_alg».proof.Proof.Gen.KernelIdeal.Frame
import proofs.«126065_j3934190043554_1_alg».proof.Proof.Gen.ReferenceIdeal.Read
import proofs.«126065_j3934190043554_1_alg».proof.Proof.Linear1
import proofs.«126065_j3934190043554_1_alg».proof.Proof.Bias1
import proofs.«126065_j3934190043554_1_alg».proof.Proof.Linear2
import proofs.«126065_j3934190043554_1_alg».proof.Proof.Bias2
import proofs.«126065_j3934190043554_1_alg».proof.Proof.RefForms
import Idealize.ShloMosaic.Lib.StableHlo.Run

set_option maxRecDepth 16384

noncomputable section

namespace Cert.KernelIdeal.Chain

open Cert.KernelIdeal Cert.KernelIdeal.Gen Cert.ReferenceIdeal.Read
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## After the first stretch: the edge lists, the weight column, the rounded first weight, the arguments -/

theorem src1 : W1 m ρ c (Proc.devRef .tc main_v3) = val_main_v3 (F := Ideal) (m ((c : Thread nD τ).loc main_arg1)) := by
  show StableHlo.after hostOps0 (W0 m ρ c) (Proc.devRef .tc main_v3) = _
  dsimp only [hostOps0]
  after_results_simp <;> rfl

theorem dst1 : W1 m ρ c (Proc.devRef .tc main_v6) = val_main_v6 (F := Ideal) (m ((c : Thread nD τ).loc main_arg1)) := by
  show StableHlo.after hostOps0 (W0 m ρ c) (Proc.devRef .tc main_v6) = _
  dsimp only [hostOps0]
  after_results_simp <;> rfl

theorem norm1 : W1 m ρ c (Proc.devRef .tc main_v29) = val_main_v29 (F := Ideal) (m ((c : Thread nD τ).loc main_arg1)) := by
  show StableHlo.after hostOps0 (W0 m ρ c) (Proc.devRef .tc main_v29) = _
  dsimp only [hostOps0]
  after_results_simp <;> rfl

theorem weight1_1 : W1 m ρ c (Proc.devRef .tc main_v30) = (truncf .bf16 (m ((c : Thread nD τ).loc main_arg3) : FVec Ideal S128x128 .f32) bitsLt_bf16_f32 : FVec Ideal S128x128 .bf16) := by
  show StableHlo.after hostOps0 (W0 m ρ c) (Proc.devRef .tc main_v30) = _
  dsimp only [hostOps0]
  after_results_simp <;> rfl

theorem input1 : W1 m ρ c (Proc.devRef .tc main_arg0) = (m ((c : Thread nD τ).loc main_arg0) : FVec Ideal S50000x128 .f32) := by
  show StableHlo.after hostOps0 (W0 m ρ c) (Proc.devRef .tc main_arg0) = _
  dsimp only [hostOps0]
  after_results_simp <;> rfl

theorem biasA1 : W1 m ρ c (Proc.devRef .tc main_arg4) = (m ((c : Thread nD τ).loc main_arg4) : FVec Ideal S128 .f32) := by
  show StableHlo.after hostOps0 (W0 m ρ c) (Proc.devRef .tc main_arg4) = _
  dsimp only [hostOps0]
  after_results_simp <;> rfl

theorem weightB1 : W1 m ρ c (Proc.devRef .tc main_arg5) = (m ((c : Thread nD τ).loc main_arg5) : FVec Ideal S128x128 .f32) := by
  show StableHlo.after hostOps0 (W0 m ρ c) (Proc.devRef .tc main_arg5) = _
  dsimp only [hostOps0]
  after_results_simp <;> rfl

theorem biasB1 : W1 m ρ c (Proc.devRef .tc main_arg6) = (m ((c : Thread nD τ).loc main_arg6) : FVec Ideal S128 .f32) := by
  show StableHlo.after hostOps0 (W0 m ρ c) (Proc.devRef .tc main_arg6) = _
  dsimp only [hostOps0]
  after_results_simp <;> rfl

theorem graph1 : W1 m ρ c (Proc.devRef .tc main_arg2) = (m ((c : Thread nD τ).loc main_arg2)) := by
  show StableHlo.after hostOps0 (W0 m ρ c) (Proc.devRef .tc main_arg2) = _
  dsimp only [hostOps0]
  after_results_simp <;> rfl

/-! ## What is carried: a buffer a call or a stretch does not write keeps its contents -/

theorem src2 : W2 m ρ c (Proc.devRef .tc main_v3) = val_main_v3 (F := Ideal) (m ((c : Thread nD τ).loc main_arg1)) :=
  (W2_of_ne m ρ c main_v3 (by decide)).trans (src1 m ρ c)
theorem src3 : W3 m ρ c (Proc.devRef .tc main_v3) = val_main_v3 (F := Ideal) (m ((c : Thread nD τ).loc main_arg1)) := by
  show StableHlo.after hostOps1 (W2 m ρ c) (Proc.devRef .tc main_v3) = _
  dsimp only [hostOps1]
  after_results
  exact src2 m ρ c
theorem src4 : W4 m ρ c (Proc.devRef .tc main_v3) = val_main_v3 (F := Ideal) (m ((c : Thread nD τ).loc main_arg1)) :=
  (W4_of_ne m ρ c main_v3 (by decide)).trans (src3 m ρ c)
theorem src5 : W5 m ρ c (Proc.devRef .tc main_v3) = val_main_v3 (F := Ideal) (m ((c : Thread nD τ).loc main_arg1)) := by
  show StableHlo.after hostOps2 (W4 m ρ c) (Proc.devRef .tc main_v3) = _
  dsimp only [hostOps2]
  after_results
  exact src4 m ρ c
theorem src6 : W6 m ρ c (Proc.devRef .tc main_v3) = val_main_v3 (F := Ideal) (m ((c : Thread nD τ).loc main_arg1)) :=
  (W6_of_ne m ρ c main_v3 (by decide)).trans (src5 m ρ c)

theorem dst2 : W2 m ρ c (Proc.devRef .tc main_v6) = val_main_v6 (F := Ideal) (m ((c : Thread nD τ).loc main_arg1)) :=
  (W2_of_ne m ρ c main_v6 (by decide)).trans (dst1 m ρ c)
theorem dst3 : W3 m ρ c (Proc.devRef .tc main_v6) = val_main_v6 (F := Ideal) (m ((c : Thread nD τ).loc main_arg1)) := by
  show StableHlo.after hostOps1 (W2 m ρ c) (Proc.devRef .tc main_v6) = _
  dsimp only [hostOps1]
  after_results
  exact dst2 m ρ c
theorem dst4 : W4 m ρ c (Proc.devRef .tc main_v6) = val_main_v6 (F := Ideal) (m ((c : Thread nD τ).loc main_arg1)) :=
  (W4_of_ne m ρ c main_v6 (by decide)).trans (dst3 m ρ c)
theorem dst5 : W5 m ρ c (Proc.devRef .tc main_v6) = val_main_v6 (F := Ideal) (m ((c : Thread nD τ).loc main_arg1)) := by
  show StableHlo.after hostOps2 (W4 m ρ c) (Proc.devRef .tc main_v6) = _
  dsimp only [hostOps2]
  after_results
  exact dst4 m ρ c
theorem dst6 : W6 m ρ c (Proc.devRef .tc main_v6) = val_main_v6 (F := Ideal) (m ((c : Thread nD τ).loc main_arg1)) :=
  (W6_of_ne m ρ c main_v6 (by decide)).trans (dst5 m ρ c)

theorem norm2 : W2 m ρ c (Proc.devRef .tc main_v29) = val_main_v29 (F := Ideal) (m ((c : Thread nD τ).loc main_arg1)) :=
  (W2_of_ne m ρ c main_v29 (by decide)).trans (norm1 m ρ c)
theorem norm3 : W3 m ρ c (Proc.devRef .tc main_v29) = val_main_v29 (F := Ideal) (m ((c : Thread nD τ).loc main_arg1)) := by
  show StableHlo.after hostOps1 (W2 m ρ c) (Proc.devRef .tc main_v29) = _
  dsimp only [hostOps1]
  after_results
  exact norm2 m ρ c
theorem norm4 : W4 m ρ c (Proc.devRef .tc main_v29) = val_main_v29 (F := Ideal) (m ((c : Thread nD τ).loc main_arg1)) :=
  (W4_of_ne m ρ c main_v29 (by decide)).trans (norm3 m ρ c)
theorem norm5 : W5 m ρ c (Proc.devRef .tc main_v29) = val_main_v29 (F := Ideal) (m ((c : Thread nD τ).loc main_arg1)) := by
  show StableHlo.after hostOps2 (W4 m ρ c) (Proc.devRef .tc main_v29) = _
  dsimp only [hostOps2]
  after_results
  exact norm4 m ρ c
theorem norm6 : W6 m ρ c (Proc.devRef .tc main_v29) = val_main_v29 (F := Ideal) (m ((c : Thread nD τ).loc main_arg1)) :=
  (W6_of_ne m ρ c main_v29 (by decide)).trans (norm5 m ρ c)

theorem biasA2 : W2 m ρ c (Proc.devRef .tc main_arg4) = (m ((c : Thread nD τ).loc main_arg4) : FVec Ideal S128 .f32) :=
  (W2_of_ne m ρ c main_arg4 (by decide)).trans (biasA1 m ρ c)

theorem weightB2 : W2 m ρ c (Proc.devRef .tc main_arg5) = (m ((c : Thread nD τ).loc main_arg5) : FVec Ideal S128x128 .f32) :=
  (W2_of_ne m ρ c main_arg5 (by decide)).trans (weightB1 m ρ c)
theorem weightB3 : W3 m ρ c (Proc.devRef .tc main_arg5) = (m ((c : Thread nD τ).loc main_arg5) : FVec Ideal S128x128 .f32) := by
  show StableHlo.after hostOps1 (W2 m ρ c) (Proc.devRef .tc main_arg5) = _
  dsimp only [hostOps1]
  after_results
  exact weightB2 m ρ c
theorem weightB4 : W4 m ρ c (Proc.devRef .tc main_arg5) = (m ((c : Thread nD τ).loc main_arg5) : FVec Ideal S128x128 .f32) :=
  (W4_of_ne m ρ c main_arg5 (by decide)).trans (weightB3 m ρ c)

theorem biasB2 : W2 m ρ c (Proc.devRef .tc main_arg6) = (m ((c : Thread nD τ).loc main_arg6) : FVec Ideal S128 .f32) :=
  (W2_of_ne m ρ c main_arg6 (by decide)).trans (biasB1 m ρ c)
theorem biasB3 : W3 m ρ c (Proc.devRef .tc main_arg6) = (m ((c : Thread nD τ).loc main_arg6) : FVec Ideal S128 .f32) := by
  show StableHlo.after hostOps1 (W2 m ρ c) (Proc.devRef .tc main_arg6) = _
  dsimp only [hostOps1]
  after_results
  exact biasB2 m ρ c
theorem biasB4 : W4 m ρ c (Proc.devRef .tc main_arg6) = (m ((c : Thread nD τ).loc main_arg6) : FVec Ideal S128 .f32) :=
  (W4_of_ne m ρ c main_arg6 (by decide)).trans (biasB3 m ρ c)
theorem biasB5 : W5 m ρ c (Proc.devRef .tc main_arg6) = (m ((c : Thread nD τ).loc main_arg6) : FVec Ideal S128 .f32) := by
  show StableHlo.after hostOps2 (W4 m ρ c) (Proc.devRef .tc main_arg6) = _
  dsimp only [hostOps2]
  after_results
  exact biasB4 m ρ c
theorem biasB6 : W6 m ρ c (Proc.devRef .tc main_arg6) = (m ((c : Thread nD τ).loc main_arg6) : FVec Ideal S128 .f32) :=
  (W6_of_ne m ρ c main_arg6 (by decide)).trans (biasB5 m ρ c)

theorem graph2 : W2 m ρ c (Proc.devRef .tc main_arg2) = (m ((c : Thread nD τ).loc main_arg2)) :=
  (W2_of_ne m ρ c main_arg2 (by decide)).trans (graph1 m ρ c)
theorem graph3 : W3 m ρ c (Proc.devRef .tc main_arg2) = (m ((c : Thread nD τ).loc main_arg2)) := by
  show StableHlo.after hostOps1 (W2 m ρ c) (Proc.devRef .tc main_arg2) = _
  dsimp only [hostOps1]
  after_results
  exact graph2 m ρ c
theorem graph4 : W4 m ρ c (Proc.devRef .tc main_arg2) = (m ((c : Thread nD τ).loc main_arg2)) :=
  (W4_of_ne m ρ c main_arg2 (by decide)).trans (graph3 m ρ c)
theorem graph5 : W5 m ρ c (Proc.devRef .tc main_arg2) = (m ((c : Thread nD τ).loc main_arg2)) := by
  show StableHlo.after hostOps2 (W4 m ρ c) (Proc.devRef .tc main_arg2) = _
  dsimp only [hostOps2]
  after_results
  exact graph4 m ρ c
theorem graph6 : W6 m ρ c (Proc.devRef .tc main_arg2) = (m ((c : Thread nD τ).loc main_arg2)) :=
  (W6_of_ne m ρ c main_arg2 (by decide)).trans (graph5 m ρ c)
theorem graph7 : W7 m ρ c (Proc.devRef .tc main_arg2) = (m ((c : Thread nD τ).loc main_arg2)) := by
  show StableHlo.after hostOps3 (W6 m ρ c) (Proc.devRef .tc main_arg2) = _
  dsimp only [hostOps3]
  after_results
  exact graph6 m ρ c
theorem graph8 : W8 m ρ c (Proc.devRef .tc main_arg2) = (m ((c : Thread nD τ).loc main_arg2)) :=
  (W8_of_ne m ρ c main_arg2 (by decide)).trans (graph7 m ρ c)

/-! ## The first layer -/

/-- The first linear call leaves the reference's first matrix product. -/
theorem lin1_2 : W2 m ρ c (Proc.devRef .tc main_v31) = val_main_v30 (F := Ideal) (m ((c : Thread nD τ).loc main_arg0) : FVec Ideal S50000x128 .f32) (m ((c : Thread nD τ).loc main_arg3) : FVec Ideal S128x128 .f32) := by
  refine (W2_arr m ρ c 2).trans ?_
  rw [Linear1.final (V1 m ρ) c]
  rw [show V1 m ρ c main_arg0 = (m ((c : Thread nD τ).loc main_arg0) : FVec Ideal S50000x128 .f32) from input1 m ρ c,
    show V1 m ρ c main_v30 = (truncf .bf16 (m ((c : Thread nD τ).loc main_arg3) : FVec Ideal S128x128 .f32) bitsLt_bf16_f32 : FVec Ideal S128x128 .bf16) from weight1_1 m ρ c]
  exact Cert.ReferenceIdeal.Forms.product_eq _ _ _

/-- The second stretch looks the product's rows up along the source list, scales them and accumulates them at the
    destination rows: the reference's first aggregation. -/
theorem agg1_3 : W3 m ρ c (Proc.devRef .tc main_v43) = val_main_v42 (F := Ideal) (m ((c : Thread nD τ).loc main_arg0) : FVec Ideal S50000x128 .f32) (m ((c : Thread nD τ).loc main_arg1)) (m ((c : Thread nD τ).loc main_arg3) : FVec Ideal S128x128 .f32) := by
  show StableHlo.after hostOps1 (W2 m ρ c) (Proc.devRef .tc main_v43) = _
  dsimp only [hostOps1]
  after_results_simp
  rw [src2 m ρ c, dst2 m ρ c, norm2 m ρ c, lin1_2 m ρ c]
  rfl

/-- … and views the first bias vector as one row. -/
theorem row1_3 : W3 m ρ c (Proc.devRef .tc main_v44) = shapeCast S1x128 (m ((c : Thread nD τ).loc main_arg4) : FVec Ideal S128 .f32) shapeCasts_S128_S1x128 := by
  show StableHlo.after hostOps1 (W2 m ρ c) (Proc.devRef .tc main_v44) = _
  dsimp only [hostOps1]
  after_results
  rw [biasA2 m ρ c]
  rfl

/-- The first bias call leaves the reference's bias addition and maximum with zero. -/
theorem act1_4 : W4 m ρ c (Proc.devRef .tc main_v45) = val_main_v46 (F := Ideal) (m ((c : Thread nD τ).loc main_arg0) : FVec Ideal S50000x128 .f32) (m ((c : Thread nD τ).loc main_arg1)) (m ((c : Thread nD τ).loc main_arg3) : FVec Ideal S128x128 .f32) (m ((c : Thread nD τ).loc main_arg4) : FVec Ideal S128 .f32) := by
  refine (W4_arr m ρ c 2).trans ?_
  rw [Bias1.final (V3 m ρ) c]
  rw [show V3 m ρ c main_v43 = val_main_v42 (F := Ideal) (m ((c : Thread nD τ).loc main_arg0) : FVec Ideal S50000x128 .f32) (m ((c : Thread nD τ).loc main_arg1)) (m ((c : Thread nD τ).loc main_arg3) : FVec Ideal S128x128 .f32) from agg1_3 m ρ c,
    show V3 m ρ c main_v44 = shapeCast S1x128 (m ((c : Thread nD τ).loc main_arg4) : FVec Ideal S128 .f32) shapeCasts_S128_S1x128 from row1_3 m ρ c]
  exact Cert.ReferenceIdeal.Forms.plusRowPos_eq _ _ _

/-! ## The second layer -/

/-- The third stretch rounds the second weight and leaves the first layer's output alone. -/
theorem weightB5r : W5 m ρ c (Proc.devRef .tc main_v46) = (truncf .bf16 (m ((c : Thread nD τ).loc main_arg5) : FVec Ideal S128x128 .f32) bitsLt_bf16_f32 : FVec Ideal S128x128 .bf16) := by
  show StableHlo.after hostOps2 (W4 m ρ c) (Proc.devRef .tc main_v46) = _
  dsimp only [hostOps2]
  after_results
  rw [weightB4 m ρ c]

theorem act1_5 : W5 m ρ c (Proc.devRef .tc main_v45) = val_main_v46 (F := Ideal) (m ((c : Thread nD τ).loc main_arg0) : FVec Ideal S50000x128 .f32) (m ((c : Thread nD τ).loc main_arg1)) (m ((c : Thread nD τ).loc main_arg3) : FVec Ideal S128x128 .f32) (m ((c : Thread nD τ).loc main_arg4) : FVec Ideal S128 .f32) := by
  show StableHlo.after hostOps2 (W4 m ρ c) (Proc.devRef .tc main_v45) = _
  dsimp only [hostOps2]
  after_results
  exact act1_4 m ρ c

/-- The second linear call leaves the reference's second matrix product. -/
theorem lin2_6 : W6 m ρ c (Proc.devRef .tc main_v47) = val_main_v47 (F := Ideal) (m ((c : Thread nD τ).loc main_arg0) : FVec Ideal S50000x128 .f32) (m ((c : Thread nD τ).loc main_arg1)) (m ((c : Thread nD τ).loc main_arg3) : FVec Ideal S128x128 .f32) (m ((c : Thread nD τ).loc main_arg4) : FVec Ideal S128 .f32) (m ((c : Thread nD τ).loc main_arg5) : FVec Ideal S128x128 .f32) := by
  refine (W6_arr m ρ c 2).trans ?_
  rw [Linear2.final (V5 m ρ) c]
  rw [show V5 m ρ c main_v45 = val_main_v46 (F := Ideal) (m ((c : Thread nD τ).loc main_arg0) : FVec Ideal S50000x128 .f32) (m ((c : Thread nD τ).loc main_arg1)) (m ((c : Thread nD τ).loc main_arg3) : FVec Ideal S128x128 .f32) (m ((c : Thread nD τ).loc main_arg4) : FVec Ideal S128 .f32) from act1_5 m ρ c,
    show V5 m ρ c main_v46 = (truncf .bf16 (m ((c : Thread nD τ).loc main_arg5) : FVec Ideal S128x128 .f32) bitsLt_bf16_f32 : FVec Ideal S128x128 .bf16) from weightB5r m ρ c]
  exact Cert.ReferenceIdeal.Forms.product_eq _ _ _

/-- The fourth stretch is the reference's second aggregation … -/
theorem agg2_7 : W7 m ρ c (Proc.devRef .tc main_v59) = val_main_v59 (F := Ideal) (m ((c : Thread nD τ).loc main_arg0) : FVec Ideal S50000x128 .f32) (m ((c : Thread nD τ).loc main_arg1)) (m ((c : Thread nD τ).loc main_arg3) : FVec Ideal S128x128 .f32) (m ((c : Thread nD τ).loc main_arg4) : FVec Ideal S128 .f32) (m ((c : Thread nD τ).loc main_arg5) : FVec Ideal S128x128 .f32) := by
  show StableHlo.after hostOps3 (W6 m ρ c) (Proc.devRef .tc main_v59) = _
  dsimp only [hostOps3]
  after_results_simp
  rw [src6 m ρ c, dst6 m ρ c, norm6 m ρ c, lin2_6 m ρ c]
  rfl

/-- … and views the second bias vector as one row. -/
theorem row2_7 : W7 m ρ c (Proc.devRef .tc main_v60) = shapeCast S1x128 (m ((c : Thread nD τ).loc main_arg6) : FVec Ideal S128 .f32) shapeCasts_S128_S1x128 := by
  show StableHlo.after hostOps3 (W6 m ρ c) (Proc.devRef .tc main_v60) = _
  dsimp only [hostOps3]
  after_results
  rw [biasB6 m ρ c]
  rfl

/-- The second bias call leaves the reference's second bias addition. -/
theorem out_8 : W8 m ρ c (Proc.devRef .tc main_v61) = val_main_v62 (F := Ideal) (m ((c : Thread nD τ).loc main_arg0) : FVec Ideal S50000x128 .f32) (m ((c : Thread nD τ).loc main_arg1)) (m ((c : Thread nD τ).loc main_arg3) : FVec Ideal S128x128 .f32) (m ((c : Thread nD τ).loc main_arg4) : FVec Ideal S128 .f32) (m ((c : Thread nD τ).loc main_arg5) : FVec Ideal S128x128 .f32) (m ((c : Thread nD τ).loc main_arg6) : FVec Ideal S128 .f32) := by
  refine (W8_arr m ρ c 2).trans ?_
  rw [Bias2.final (V7 m ρ) c]
  rw [show V7 m ρ c main_v59 = val_main_v59 (F := Ideal) (m ((c : Thread nD τ).loc main_arg0) : FVec Ideal S50000x128 .f32) (m ((c : Thread nD τ).loc main_arg1)) (m ((c : Thread nD τ).loc main_arg3) : FVec Ideal S128x128 .f32) (m ((c : Thread nD τ).loc main_arg4) : FVec Ideal S128 .f32) (m ((c : Thread nD τ).loc main_arg5) : FVec Ideal S128x128 .f32) from agg2_7 m ρ c,
    show V7 m ρ c main_v60 = shapeCast S1x128 (m ((c : Thread nD τ).loc main_arg6) : FVec Ideal S128 .f32) shapeCasts_S128_S1x128 from row2_7 m ρ c]
  exact Cert.ReferenceIdeal.Forms.plusRow_eq _ _ _

/-! ## The per-graph mean -/

/-- The last stretch sums the rows of each graph and divides by the graph's size, at least one: the reference's
    result. -/
theorem result_9 : W9 m ρ c (Proc.devRef .tc main_v73) = val_main_v74 (F := Ideal) (m ((c : Thread nD τ).loc main_arg0) : FVec Ideal S50000x128 .f32) (m ((c : Thread nD τ).loc main_arg1)) (m ((c : Thread nD τ).loc main_arg2)) (m ((c : Thread nD τ).loc main_arg3) : FVec Ideal S128x128 .f32) (m ((c : Thread nD τ).loc main_arg4) : FVec Ideal S128 .f32) (m ((c : Thread nD τ).loc main_arg5) : FVec Ideal S128x128 .f32) (m ((c : Thread nD τ).loc main_arg6) : FVec Ideal S128 .f32) := by
  show StableHlo.after hostOps4 (W8 m ρ c) (Proc.devRef .tc main_v73) = _
  dsimp only [hostOps4]
  after_results_simp
  rw [graph8 m ρ c, out_8 m ρ c]
  rfl

end Cert.KernelIdeal.Chain

end
-- ==== Proof.lean ====
/-
  A two-layer graph convolution with mean pooling, as a kernel program against its reference, over the extended
  reals.

  Both programs append a self-loop to every node of the edge list, count each node's degree, weight every edge by the
  inverse square roots of its two endpoints' degrees (a degree below one counted as one), and then twice: multiply the
  node features by a weight matrix, look the products' rows up along the source list, scale each by its edge's weight,
  accumulate them at the destination rows, and add a bias — after the first layer taking the maximum with zero.  Last,
  the rows of each graph are summed and divided by the graph's size, at least one.

  The kernel program does the two matrix products and the two bias additions as kernel calls over ten blocks of 5000
  rows, the operands of the products rounded to a shorter float format on the way in; everything else is the same
  host operations in the same order as the reference's.  On the extended reals a change of float format is the
  identity, a block product started from zero is the plain sum of products over the contracted axis, and the blocks of
  a call tile its output array, so each call is the whole-array function the reference computes there with one host
  operation (`Linear1`, `Bias1`, `Linear2`, `Bias2` against `RefForms`).  The kernel program's result is then
  the reference's, boundary by boundary (`Chain`), and no law of arithmetic is needed beyond reading each sum at an
  index: in particular nothing asks the inputs to be finite.

  The three frames are the generated ones (the reference's is its generated run with the result dropped); the
  idealization rewrote nothing, so the kernel program's idealization claim is trivial.
-/
import proofs.«126065_j3934190043554_1_alg».proof.Defs
import proofs.«126065_j3934190043554_1_alg».proof.Proof.Gen.Kernel
import proofs.«126065_j3934190043554_1_alg».proof.Proof.Gen.Kernel.Skeleton
import proofs.«126065_j3934190043554_1_alg».proof.Proof.Gen.Kernel.Launch
import proofs.«126065_j3934190043554_1_alg».proof.Proof.Gen.Kernel.Points
import proofs.«126065_j3934190043554_1_alg».proof.Proof.Gen.Kernel.Frame
import proofs.«126065_j3934190043554_1_alg».proof.Proof.Gen.KernelIdeal
import proofs.«126065_j3934190043554_1_alg».proof.Proof.Gen.KernelIdeal.Skeleton
import proofs.«126065_j3934190043554_1_alg».proof.Proof.Gen.KernelIdeal.Launch
import proofs.«126065_j3934190043554_1_alg».proof.Proof.Gen.KernelIdeal.Points
import proofs.«126065_j3934190043554_1_alg».proof.Proof.Gen.KernelIdeal.Frame
import proofs.«126065_j3934190043554_1_alg».proof.Proof.Gen.ReferenceIdeal
import proofs.«126065_j3934190043554_1_alg».proof.Proof.Gen.Pre_finite_inputs
import proofs.«126065_j3934190043554_1_alg».proof.Proof.Gen.ReferenceIdeal.Run
import proofs.«126065_j3934190043554_1_alg».proof.Proof.Gen.ReferenceIdeal.Read
import proofs.«126065_j3934190043554_1_alg».proof.Proof.Named
import proofs.«126065_j3934190043554_1_alg».proof.Proof.Chain
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the reference's last stage of those
    arguments in their result buffers: the kernel program by its run with the result named and the chain of
    boundaries, the reference by its own run. -/
theorem algebraic : Cert.algebraic_KernelIdeal_ReferenceIdeal := by
  intro m ρ m' ρ' _ hagree
  refine ⟨fun c => Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Chain.result_9 m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v74_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
